-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S4096x2048 .f32) (main_arg5 : FVec F S2048x2048 .f32) (main_arg6 : FVec F S2048x2048 .f32) (main_arg7 : FVec F S2048x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S2048x2048 .f32) (main_arg6 : FVec F S2048x2048 .f32) (main_arg7 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S2048x2048 : Shape := ⟨2, ![2048, 2048]⟩
abbrev S512x2048 : Shape := ⟨2, ![512, 2048]⟩
abbrev S512x128 : Shape := ⟨2, ![512, 128]⟩
abbrev S128x2048 : Shape := ⟨2, ![128, 2048]⟩

abbrev nBuf : Space → Nat
  | .hbm => 16
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S4096x2048, .bf16⟩
  | .hbm, ⟨9, _⟩ => ⟨S4096x2048, .bf16⟩
  | .hbm, ⟨10, _⟩ => ⟨S2048x2048, .bf16⟩
  | .hbm, ⟨11, _⟩ => ⟨S2048x2048, .bf16⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0_13 : Index := 0#32
  let arg1 : BitVec 32 := BitVec.ofNat 32 (i 1).val
  let c128_i32 : BitVec 32 := 128#32
  let v0 : BitVec 32 := Scalar.muli arg1 c128_i32
  let v1 : BitVec 32 := v0
  let v15 : Index := Scalar.indexCast v1
  ![0, v15.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  h_S512x128 : 0 < S512x128.numel
  inb_S512x128_S512x128_0_0 : ∀ a, (![0, 0] : Fin 2 → Nat) a + S512x128.size a ≤ S512x128.size a
  natLt_1_32 : 1 < 32
  dot_S512x2048_S128x2048_S512x128_1_1_0_0_n_n_wf : DotDims.WF S512x2048 S128x2048 S512x128 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x128.size a ≤ S512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x2048.size a
  hwx0_3 : ∀ i : grid0.Coords, EltTy.bits .f32 = 32 ∨ (Rect.block (s := S4096x2048) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x2048.size a
  hwx0_4 : ∀ i : grid0.Coords, EltTy.bits .f32 = 32 ∨ (Rect.block (s := S4096x2048) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .bf16 = 32 ∨ (Rect.block (s := S2048x2048) S128x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .bf16 = 32 ∨ (Rect.block (s := S2048x2048) S128x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S4096x2048.size a
  hwx0_8 : ∀ i : grid0.Coords, EltTy.bits .f32 = 32 ∨ (Rect.block (s := S4096x2048) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x2048.size a
  hwx0_9 : ∀ i : grid0.Coords, EltTy.bits .f32 = 32 ∨ (Rect.block (s := S4096x2048) S512x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x2048.size a
  hwx0_10 : ∀ i : grid0.Coords, EltTy.bits .f32 = 32 ∨ (Rect.block (s := S4096x2048) S512x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S4096x2048.size a
  hwx0_11 : ∀ i : grid0.Coords, EltTy.bits .f32 = 32 ∨ (Rect.block (s := S4096x2048) S512x128.size (cc0_transform_11 i) (hinb0_11 i)).WholeWords (EltTy.packing .f32)

variable [Facts₀]

def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S512x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_3) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S2048x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .i1⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S2048x2048, .f32⟩
  | .hbm, ⟨39, _⟩ => ⟨S4096x2048, .f32⟩
  | .hbm, ⟨40, _⟩ => ⟨S4096x2048, .f32⟩
  | .hbm, ⟨41, _⟩ => ⟨S2048x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .i1⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  transposes_S2048x2048_S2048x2048_1_0 : S2048x2048.Transposes [1, 0] S2048x2048
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Pieces.lean ====
/-
  What one grid point's body leaves in each of its four output tiles, as a value.

  The body loads the row block of v whole ([512, 2048]) and, again, its columns [128h, 128h + 128) (the
  tile the point updates); it loads the tiles of i and rho, the row blocks of inp and z, and 128 rows of each
  of the three weight matrices.  Each output tile is written by one store that covers it, so what the tile
  holds afterwards is that store's operand: a pure function of the loaded blocks.  The loads of the output
  tiles that precede the stores are never used.
-/
import proofs.«130298_j42631845380415_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- Columns [128h, 128h + 128) of a [512, 2048] row block, h the point's second coordinate. -/
abbrev tileOf (i : grid0.Coords) (x : Vec F S512x2048 .f32) : Vec F S512x128 .f32 :=
  View.ld x (Rect.unit (s := S512x2048) (k0_off1 i) S512x128.size (k0_off1_inb i))

/-- The decayed potential less the threshold, on the tile: what both comparisons of the body start from. -/
abbrev overThreshold (i : grid0.Coords) (x2 : Vec F S512x2048 .f32) (x3 : Vec F S512x128 .f32) (x5 : Vec F S128x2048 .f32) :
    FVec F S512x128 .f32 := k0_pay11 x2 x5 (tileOf i x2) x3

variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S128x2048 .f32) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
  (x0 : Vec F S512x2048 .bf16) (x1 : Vec F S512x2048 .bf16) (x2 : Vec F S512x2048 .f32) (x3 : Vec F S512x128 .f32) (x4 : Vec F S512x128 .f32) (x5 : Vec F S128x2048 .f32) (x6 : Vec F S128x2048 .bf16) (x7 : Vec F S128x2048 .bf16)

/-- The spike tile: (1 − mask) · fired. -/
theorem spike_tile :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay5 x4 (overThreshold i x2 x3 x5) (k0_pay12 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x2048) hz, View.ld_unit_zero (S := S512x128) hz, View.ld_unit_zero (S := S128x2048) hz]
  rfl

/-- The potential tile. -/
theorem potential_tile :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7
      = k0_pay4 (tileOf i x2) x4 (k0_pay9 x2 x5 (tileOf i x2) x3) (overThreshold i x2 x3 x5) (k0_pay12 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x2048) hz, View.ld_unit_zero (S := S512x128) hz, View.ld_unit_zero (S := S128x2048) hz]
  rfl

/-- The current tile: the decayed current plus the two projections. -/
theorem current_tile :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay2 (k0_pay7 x0 x6) (k0_pay8 x1 x7) (k0_pay10 x3) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x2048) hz, View.ld_unit_zero (S := S512x128) hz, View.ld_unit_zero (S := S128x2048) hz]

/-- The refractory-counter tile. -/
theorem counter_tile :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay6 x4 (overThreshold i x2 x3 x5) (k0_pay12 (F := F)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x2048) hz, View.ld_unit_zero (S := S512x128) hz, View.ld_unit_zero (S := S128x2048) hz]
  rfl

end Cert.KernelIdeal.Body

end
-- ==== Proof.Reads.lean ====
/-
  Where each block of a grid point sits in its array.

  The grid is 8 × 16: point (b, h) updates the tile of rows [512b, 512b + 512) and columns [128h, 128h + 128)
  of the four outputs.  It reads the same tile of i and rho, rows [512b, 512b + 512) of v, inp and z (all 2048
  columns), and rows [128h, 128h + 128) of the three weight matrices (all 2048 columns); the tile of v it
  updates is columns [128h, 128h + 128) of the row block of v.  The relations between the index maps are
  decided once over the 128 points.  The narrow-format copies of inp, z, w_in and w_rec that the program makes
  before the grid hold, at the ideal values, the arguments themselves.
-/
import proofs.«130298_j42631845380415_2_alg».proof.Proof.Gen.KernelIdeal.Frame
import proofs.«130298_j42631845380415_2_alg».proof.Proof.Pieces
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Body

open Cert.KernelIdeal Cert.KernelIdeal.Gen

variable (m : (ℓ : Loc nD τ sig) → Buf (Elt Ideal) ℓ)

/-! ## The index maps, relative to the spike output's -/

theorem index_0 : ∀ t : Fin cfg0.N, win0_0.index t (0 : Fin 2) = win0_8.index t (0 : Fin 2) ∧ win0_0.index t (1 : Fin 2) = 0 :=
  (by decide +kernel : ∀ t : Fin grid0.N, win0_0.index t (0 : Fin 2) = win0_8.index t (0 : Fin 2) ∧ win0_0.index t (1 : Fin 2) = 0)
theorem index_1 : ∀ t : Fin cfg0.N, win0_1.index t (0 : Fin 2) = win0_8.index t (0 : Fin 2) ∧ win0_1.index t (1 : Fin 2) = 0 :=
  (by decide +kernel : ∀ t : Fin grid0.N, win0_1.index t (0 : Fin 2) = win0_8.index t (0 : Fin 2) ∧ win0_1.index t (1 : Fin 2) = 0)
theorem index_2 : ∀ t : Fin cfg0.N, win0_2.index t (0 : Fin 2) = win0_8.index t (0 : Fin 2) ∧ win0_2.index t (1 : Fin 2) = 0 :=
  (by decide +kernel : ∀ t : Fin grid0.N, win0_2.index t (0 : Fin 2) = win0_8.index t (0 : Fin 2) ∧ win0_2.index t (1 : Fin 2) = 0)
theorem index_3 : ∀ t : Fin cfg0.N, win0_3.index t (0 : Fin 2) = win0_8.index t (0 : Fin 2) ∧ win0_3.index t (1 : Fin 2) = win0_8.index t (1 : Fin 2) :=
  (by decide +kernel : ∀ t : Fin grid0.N, win0_3.index t (0 : Fin 2) = win0_8.index t (0 : Fin 2) ∧ win0_3.index t (1 : Fin 2) = win0_8.index t (1 : Fin 2))
theorem index_4 : ∀ t : Fin cfg0.N, win0_4.index t (0 : Fin 2) = win0_8.index t (0 : Fin 2) ∧ win0_4.index t (1 : Fin 2) = win0_8.index t (1 : Fin 2) :=
  (by decide +kernel : ∀ t : Fin grid0.N, win0_4.index t (0 : Fin 2) = win0_8.index t (0 : Fin 2) ∧ win0_4.index t (1 : Fin 2) = win0_8.index t (1 : Fin 2))
theorem index_5 : ∀ t : Fin cfg0.N, win0_5.index t (0 : Fin 2) = win0_8.index t (1 : Fin 2) ∧ win0_5.index t (1 : Fin 2) = 0 :=
  (by decide +kernel : ∀ t : Fin grid0.N, win0_5.index t (0 : Fin 2) = win0_8.index t (1 : Fin 2) ∧ win0_5.index t (1 : Fin 2) = 0)
theorem index_6 : ∀ t : Fin cfg0.N, win0_6.index t (0 : Fin 2) = win0_8.index t (1 : Fin 2) ∧ win0_6.index t (1 : Fin 2) = 0 :=
  (by decide +kernel : ∀ t : Fin grid0.N, win0_6.index t (0 : Fin 2) = win0_8.index t (1 : Fin 2) ∧ win0_6.index t (1 : Fin 2) = 0)
theorem index_7 : ∀ t : Fin cfg0.N, win0_7.index t (0 : Fin 2) = win0_8.index t (1 : Fin 2) ∧ win0_7.index t (1 : Fin 2) = 0 :=
  (by decide +kernel : ∀ t : Fin grid0.N, win0_7.index t (0 : Fin 2) = win0_8.index t (1 : Fin 2) ∧ win0_7.index t (1 : Fin 2) = 0)
theorem index_9 : ∀ t : Fin cfg0.N, win0_9.index t (0 : Fin 2) = win0_8.index t (0 : Fin 2) ∧ win0_9.index t (1 : Fin 2) = win0_8.index t (1 : Fin 2) :=
  (by decide +kernel : ∀ t : Fin grid0.N, win0_9.index t (0 : Fin 2) = win0_8.index t (0 : Fin 2) ∧ win0_9.index t (1 : Fin 2) = win0_8.index t (1 : Fin 2))
theorem index_10 : ∀ t : Fin cfg0.N, win0_10.index t (0 : Fin 2) = win0_8.index t (0 : Fin 2) ∧ win0_10.index t (1 : Fin 2) = win0_8.index t (1 : Fin 2) :=
  (by decide +kernel : ∀ t : Fin grid0.N, win0_10.index t (0 : Fin 2) = win0_8.index t (0 : Fin 2) ∧ win0_10.index t (1 : Fin 2) = win0_8.index t (1 : Fin 2))
theorem index_11 : ∀ t : Fin cfg0.N, win0_11.index t (0 : Fin 2) = win0_8.index t (0 : Fin 2) ∧ win0_11.index t (1 : Fin 2) = win0_8.index t (1 : Fin 2) :=
  (by decide +kernel : ∀ t : Fin grid0.N, win0_11.index t (0 : Fin 2) = win0_8.index t (0 : Fin 2) ∧ win0_11.index t (1 : Fin 2) = win0_8.index t (1 : Fin 2))
theorem index_onto_8 : ∀ (b : Fin 8) (h : Fin 16), ∃ t : Fin cfg0.N, win0_8.index t = ![b.val, h.val] :=
  (by decide +kernel : ∀ (b : Fin 8) (h : Fin 16), ∃ t : Fin grid0.N, win0_8.index t = ![b.val, h.val])
theorem index_onto_9 : ∀ (b : Fin 8) (h : Fin 16), ∃ t : Fin cfg0.N, win0_9.index t = ![b.val, h.val] :=
  (by decide +kernel : ∀ (b : Fin 8) (h : Fin 16), ∃ t : Fin grid0.N, win0_9.index t = ![b.val, h.val])
theorem index_onto_10 : ∀ (b : Fin 8) (h : Fin 16), ∃ t : Fin cfg0.N, win0_10.index t = ![b.val, h.val] :=
  (by decide +kernel : ∀ (b : Fin 8) (h : Fin 16), ∃ t : Fin grid0.N, win0_10.index t = ![b.val, h.val])
theorem index_onto_11 : ∀ (b : Fin 8) (h : Fin 16), ∃ t : Fin cfg0.N, win0_11.index t = ![b.val, h.val] :=
  (by decide +kernel : ∀ (b : Fin 8) (h : Fin 16), ∃ t : Fin grid0.N, win0_11.index t = ![b.val, h.val])
/-- The point's second coordinate is the column-block index, and both block indices are in range. -/
theorem index_coord : ∀ t : Fin cfg0.N, (grid0.coords t (1 : Fin 2)).val = win0_8.index t (1 : Fin 2)
    ∧ win0_8.index t (0 : Fin 2) ≤ 7 ∧ win0_8.index t (1 : Fin 2) ≤ 15 :=
  (by decide +kernel : ∀ t : Fin grid0.N, (grid0.coords t (1 : Fin 2)).val = win0_8.index t (1 : Fin 2)
    ∧ win0_8.index t (0 : Fin 2) ≤ 7 ∧ win0_8.index t (1 : Fin 2) ≤ 15)

/-! ## Each input block, read where the output's tile says -/

/-- The input block at a point: 512 rows of inp (in the narrow format), all columns. -/
theorem inp_rows (c : Dev nD) (t : Fin cfg0.N) (x : S512x2048.Idx) (k : S4096x2048.Idx)
    (hk0 : (k 0).val = win0_8.index t (0 : Fin 2) * 512 + (x 0).val) (hk1 : (k 1).val = (x 1).val) :
    (iblk m c 0 t : Vec Ideal S512x2048 .bf16) x = V m c main_v0 k := by
  obtain ⟨e0, e1⟩ := index_0 t
  unfold iblk
  rw [View.read_apply]
  show V m c main_v0 _ = V m c main_v0 _
  congr 1
  funext a
  apply Fin.ext
  match a with
  | ⟨0, _⟩ => show win0_0.index t (0 : Fin 2) * 512 + 1 * (x 0).val = (k 0).val; omega
  | ⟨1, _⟩ => show win0_0.index t (1 : Fin 2) * 2048 + 1 * (x 1).val = (k 1).val; omega

/-- The spike-input block at a point: 512 rows of z (in the narrow format), all columns. -/
theorem z_rows (c : Dev nD) (t : Fin cfg0.N) (x : S512x2048.Idx) (k : S4096x2048.Idx)
    (hk0 : (k 0).val = win0_8.index t (0 : Fin 2) * 512 + (x 0).val) (hk1 : (k 1).val = (x 1).val) :
    (iblk m c 1 t : Vec Ideal S512x2048 .bf16) x = V m c main_v1 k := by
  obtain ⟨e0, e1⟩ := index_1 t
  unfold iblk
  rw [View.read_apply]
  show V m c main_v1 _ = V m c main_v1 _
  congr 1
  funext a
  apply Fin.ext
  match a with
  | ⟨0, _⟩ => show win0_1.index t (0 : Fin 2) * 512 + 1 * (x 0).val = (k 0).val; omega
  | ⟨1, _⟩ => show win0_1.index t (1 : Fin 2) * 2048 + 1 * (x 1).val = (k 1).val; omega

/-- The potential block at a point: 512 rows of v, all columns. -/
theorem v_rows (c : Dev nD) (t : Fin cfg0.N) (x : S512x2048.Idx) (k : S4096x2048.Idx)
    (hk0 : (k 0).val = win0_8.index t (0 : Fin 2) * 512 + (x 0).val) (hk1 : (k 1).val = (x 1).val) :
    (iblk m c 2 t : Vec Ideal S512x2048 .f32) x = V m c main_arg2 k := by
  obtain ⟨e0, e1⟩ := index_2 t
  unfold iblk
  rw [View.read_apply]
  show V m c main_arg2 _ = V m c main_arg2 _
  congr 1
  funext a
  apply Fin.ext
  match a with
  | ⟨0, _⟩ => show win0_2.index t (0 : Fin 2) * 512 + 1 * (x 0).val = (k 0).val; omega
  | ⟨1, _⟩ => show win0_2.index t (1 : Fin 2) * 2048 + 1 * (x 1).val = (k 1).val; omega

/-- The current tile at a point. -/
theorem i_tile (c : Dev nD) (t : Fin cfg0.N) (x : S512x128.Idx) (k : S4096x2048.Idx)
    (hk0 : (k 0).val = win0_8.index t (0 : Fin 2) * 512 + (x 0).val) (hk1 : (k 1).val = win0_8.index t (1 : Fin 2) * 128 + (x 1).val) :
    (iblk m c 3 t : Vec Ideal S512x128 .f32) x = V m c main_arg3 k := by
  obtain ⟨e0, e1⟩ := index_3 t
  unfold iblk
  rw [View.read_apply]
  show V m c main_arg3 _ = V m c main_arg3 _
  congr 1
  funext a
  apply Fin.ext
  match a with
  | ⟨0, _⟩ => show win0_3.index t (0 : Fin 2) * 512 + 1 * (x 0).val = (k 0).val; omega
  | ⟨1, _⟩ => show win0_3.index t (1 : Fin 2) * 128 + 1 * (x 1).val = (k 1).val; omega

/-- The refractory-counter tile at a point. -/
theorem rho_tile (c : Dev nD) (t : Fin cfg0.N) (x : S512x128.Idx) (k : S4096x2048.Idx)
    (hk0 : (k 0).val = win0_8.index t (0 : Fin 2) * 512 + (x 0).val) (hk1 : (k 1).val = win0_8.index t (1 : Fin 2) * 128 + (x 1).val) :
    (iblk m c 4 t : Vec Ideal S512x128 .f32) x = V m c main_arg4 k := by
  obtain ⟨e0, e1⟩ := index_4 t
  unfold iblk
  rw [View.read_apply]
  show V m c main_arg4 _ = V m c main_arg4 _
  congr 1
  funext a
  apply Fin.ext
  match a with
  | ⟨0, _⟩ => show win0_4.index t (0 : Fin 2) * 512 + 1 * (x 0).val = (k 0).val; omega
  | ⟨1, _⟩ => show win0_4.index t (1 : Fin 2) * 128 + 1 * (x 1).val = (k 1).val; omega

/-- The coupling-weight block at a point: 128 rows of g, all columns. -/
theorem g_rows (c : Dev nD) (t : Fin cfg0.N) (x : S128x2048.Idx) (k : S2048x2048.Idx)
    (hk0 : (k 0).val = win0_8.index t (1 : Fin 2) * 128 + (x 0).val) (hk1 : (k 1).val = (x 1).val) :
    (iblk m c 5 t : Vec Ideal S128x2048 .f32) x = V m c main_arg7 k := by
  obtain ⟨e0, e1⟩ := index_5 t
  unfold iblk
  rw [View.read_apply]
  show V m c main_arg7 _ = V m c main_arg7 _
  congr 1
  funext a
  apply Fin.ext
  match a with
  | ⟨0, _⟩ => show win0_5.index t (0 : Fin 2) * 128 + 1 * (x 0).val = (k 0).val; omega
  | ⟨1, _⟩ => show win0_5.index t (1 : Fin 2) * 2048 + 1 * (x 1).val = (k 1).val; omega

/-- The input-weight block at a point: 128 rows of w_in (in the narrow format), all columns. -/
theorem win_rows (c : Dev nD) (t : Fin cfg0.N) (x : S128x2048.Idx) (k : S2048x2048.Idx)
    (hk0 : (k 0).val = win0_8.index t (1 : Fin 2) * 128 + (x 0).val) (hk1 : (k 1).val = (x 1).val) :
    (iblk m c 6 t : Vec Ideal S128x2048 .bf16) x = V m c main_v2 k := by
  obtain ⟨e0, e1⟩ := index_6 t
  unfold iblk
  rw [View.read_apply]
  show V m c main_v2 _ = V m c main_v2 _
  congr 1
  funext a
  apply Fin.ext
  match a with
  | ⟨0, _⟩ => show win0_6.index t (0 : Fin 2) * 128 + 1 * (x 0).val = (k 0).val; omega
  | ⟨1, _⟩ => show win0_6.index t (1 : Fin 2) * 2048 + 1 * (x 1).val = (k 1).val; omega

/-- The recurrent-weight block at a point: 128 rows of w_rec (in the narrow format), all columns. -/
theorem wrec_rows (c : Dev nD) (t : Fin cfg0.N) (x : S128x2048.Idx) (k : S2048x2048.Idx)
    (hk0 : (k 0).val = win0_8.index t (1 : Fin 2) * 128 + (x 0).val) (hk1 : (k 1).val = (x 1).val) :
    (iblk m c 7 t : Vec Ideal S128x2048 .bf16) x = V m c main_v3 k := by
  obtain ⟨e0, e1⟩ := index_7 t
  unfold iblk
  rw [View.read_apply]
  show V m c main_v3 _ = V m c main_v3 _
  congr 1
  funext a
  apply Fin.ext
  match a with
  | ⟨0, _⟩ => show win0_7.index t (0 : Fin 2) * 128 + 1 * (x 0).val = (k 0).val; omega
  | ⟨1, _⟩ => show win0_7.index t (1 : Fin 2) * 2048 + 1 * (x 1).val = (k 1).val; omega

/-- The tile of v the point updates: columns [128h, 128h + 128) of the row block, that is v at the output's index. -/
theorem v_tile (c : Dev nD) (t : Fin cfg0.N) (y : S512x128.Idx) (k : S4096x2048.Idx)
    (hk0 : (k 0).val = win0_8.index t (0 : Fin 2) * 512 + (y 0).val)
    (hk1 : (k 1).val = win0_8.index t (1 : Fin 2) * 128 + (y 1).val) :
    tileOf (grid0.coords t) (iblk m c 2 t : Vec Ideal S512x2048 .f32) y = V m c main_arg2 k := by
  obtain ⟨hc, -, -⟩ := index_coord t
  have ho : k0_off1 (grid0.coords t) = ![0, 128 * (grid0.coords t (1 : Fin 2)).val] := k0_off1_eq _
  show (iblk m c 2 t : Vec Ideal S512x2048 .f32)
    ((Rect.unit (s := S512x2048) (k0_off1 (grid0.coords t)) S512x128.size (k0_off1_inb (grid0.coords t))).idx y) = _
  refine v_rows m c t _ k ?_ ?_
  · show (k 0).val = win0_8.index t (0 : Fin 2) * 512 + (k0_off1 (grid0.coords t) 0 + 1 * (y 0).val)
    rw [ho]
    show (k 0).val = win0_8.index t (0 : Fin 2) * 512 + (0 + 1 * (y 0).val)
    omega
  · show (k 1).val = k0_off1 (grid0.coords t) 1 + 1 * (y 1).val
    rw [ho]
    show (k 1).val = 128 * (grid0.coords t (1 : Fin 2)).val + 1 * (y 1).val
    omega

/-! ## The arrays the grid finds -/

/-- The narrow-format copy of inp holds inp. -/
theorem found_inp (c : Dev nD) :
    (V m c main_v0 : S4096x2048.Idx → EReal) = (m ((c : Thread nD τ).loc main_arg0) : S4096x2048.Idx → EReal) := by
  have e : (V m c main_v0 : S4096x2048.Idx → Elt Ideal .bf16)
      = truncf (F := Ideal) .bf16 (m ((c : Thread nD τ).loc main_arg0) : S4096x2048.Idx → Elt Ideal .f32) bitsLt_bf16_f32 := by
    dsimp only [Gen.V, Gen.hostOps0]; after_results
  exact e

/-- The narrow-format copy of z holds z. -/
theorem found_z (c : Dev nD) :
    (V m c main_v1 : S4096x2048.Idx → EReal) = (m ((c : Thread nD τ).loc main_arg1) : S4096x2048.Idx → EReal) := by
  have e : (V m c main_v1 : S4096x2048.Idx → Elt Ideal .bf16)
      = truncf (F := Ideal) .bf16 (m ((c : Thread nD τ).loc main_arg1) : S4096x2048.Idx → Elt Ideal .f32) bitsLt_bf16_f32 := by
    dsimp only [Gen.V, Gen.hostOps0]; after_results
  exact e

/-- The narrow-format copy of w_in holds w_in. -/
theorem found_win (c : Dev nD) :
    (V m c main_v2 : S2048x2048.Idx → EReal) = (m ((c : Thread nD τ).loc main_arg5) : S2048x2048.Idx → EReal) := by
  have e : (V m c main_v2 : S2048x2048.Idx → Elt Ideal .bf16)
      = truncf (F := Ideal) .bf16 (m ((c : Thread nD τ).loc main_arg5) : S2048x2048.Idx → Elt Ideal .f32) bitsLt_bf16_f32 := by
    dsimp only [Gen.V, Gen.hostOps0]; after_results
  exact e

/-- The narrow-format copy of w_rec holds w_rec. -/
theorem found_wrec (c : Dev nD) :
    (V m c main_v3 : S2048x2048.Idx → EReal) = (m ((c : Thread nD τ).loc main_arg6) : S2048x2048.Idx → EReal) := by
  have e : (V m c main_v3 : S2048x2048.Idx → Elt Ideal .bf16)
      = truncf (F := Ideal) .bf16 (m ((c : Thread nD τ).loc main_arg6) : S2048x2048.Idx → Elt Ideal .f32) bitsLt_bf16_f32 := by
    dsimp only [Gen.V, Gen.hostOps0]; after_results
  exact e

end Cert.KernelIdeal.Body

end
-- ==== Proof.Spec.lean ====
/-
  One step of a leaky integrate-and-fire layer with a refractory counter, as functions of extended reals.

  Per neuron (row r of the batch, column c of the layer), with membrane potential v, synaptic current i and
  refractory counter rho, and with the three row-against-row products
      coup = Σₖ v(r,k)·g(c,k),   p₁ = Σₖ inp(r,k)·w_in(c,k),   p₂ = Σₖ z(r,k)·w_rec(c,k):

      v_dec  = (v + 0.1·((0 − v) + i)) + coup
      fired  = [v_dec − 1 > 0]
      mask   = [rho > 0]
      z'     = (1 − mask)·fired
      v'     = (1 − mask)·((1 − fired)·v_dec + fired·0) + mask·v
      i'     = ((i − 0.2·i) + p₁) + p₂
      rho'   = (1 − z')·max(rho − mask, 0) + z'·5

  [P] is 1 or 0, the comparison's bit read as an unsigned integer.  The constants are the single-precision
  words of 0, 0.1, 0.2, 1 and 5, kept as words: both programs carry the same words, so they are never evaluated.
  Every operation is the exact one on the extended reals; no law of arithmetic is used below, so nothing here
  needs the inputs to be finite.
-/
import Idealize.ShloMosaic.PureOps.Ideal
import Idealize.ShloMosaic.Lib.ValueIdx

noncomputable section

open scoped BigOperators

namespace Lif

open Idealize.ShloMosaic Idealize.ShloMosaic.ValueIdx

/-- The words of the constants. -/
def zero : Ideal .f32 := FloatOps.ofBits (F := Ideal) .f32 0x00000000#32
def one : Ideal .f32 := FloatOps.ofBits (F := Ideal) .f32 0x3F800000#32
def tenth : Ideal .f32 := FloatOps.ofBits (F := Ideal) .f32 0x3DCCCCCD#32
def fifth : Ideal .f32 := FloatOps.ofBits (F := Ideal) .f32 0x3E4CCCCD#32
def five : Ideal .f32 := FloatOps.ofBits (F := Ideal) .f32 0x40A00000#32

/-- [x > 0]: the comparison's bit as the number 0 or 1. -/
def step (x : Ideal .f32) : Ideal .f32 :=
  FloatOps.uitofp (F := Ideal) .f32 (FloatOps.cmpf (F := Ideal) .ogt x zero)

/-- The potential after the leak and the coupling term. -/
def decayed (v i coup : Ideal .f32) : Ideal .f32 :=
  FloatOps.addf (F := Ideal) (FloatOps.addf (F := Ideal) v
    (FloatOps.mulf (F := Ideal) tenth (FloatOps.addf (F := Ideal) (FloatOps.subf (F := Ideal) zero v) i))) coup

/-- Whether the decayed potential crossed the threshold 1. -/
def fired (v i coup : Ideal .f32) : Ideal .f32 :=
  step (FloatOps.subf (F := Ideal) (decayed v i coup) one)

/-- The new spike: a crossing outside the refractory period. -/
def zOut (v i rho coup : Ideal .f32) : Ideal .f32 :=
  FloatOps.mulf (F := Ideal) (FloatOps.subf (F := Ideal) one (step rho)) (fired v i coup)

/-- The new potential: reset on a crossing, held while refractory. -/
def vOut (v i rho coup : Ideal .f32) : Ideal .f32 :=
  FloatOps.addf (F := Ideal)
    (FloatOps.mulf (F := Ideal) (FloatOps.subf (F := Ideal) one (step rho))
      (FloatOps.addf (F := Ideal)
        (FloatOps.mulf (F := Ideal) (FloatOps.subf (F := Ideal) one (fired v i coup)) (decayed v i coup))
        (FloatOps.mulf (F := Ideal) (fired v i coup) zero)))
    (FloatOps.mulf (F := Ideal) (step rho) v)

/-- The new current: the decayed current plus the input and the recurrent projections. -/
def iOut (i p₁ p₂ : Ideal .f32) : Ideal .f32 :=
  FloatOps.addf (F := Ideal) (FloatOps.addf (F := Ideal)
    (FloatOps.subf (F := Ideal) i (FloatOps.mulf (F := Ideal) fifth i)) p₁) p₂

/-- The new refractory counter: counted down to 0, set to 5 on a spike. -/
def rhoOut (v i rho coup : Ideal .f32) : Ideal .f32 :=
  FloatOps.addf (F := Ideal)
    (FloatOps.mulf (F := Ideal) (FloatOps.subf (F := Ideal) one (zOut v i rho coup))
      (FloatOps.maximumf (F := Ideal) (FloatOps.subf (F := Ideal) rho (step rho)) zero))
    (FloatOps.mulf (F := Ideal) (zOut v i rho coup) five)

/-- A batch of states, [4096, 2048], and a weight matrix, [2048, 2048]. -/
abbrev State := (⟨2, ![4096, 2048]⟩ : Shape).Idx → Ideal .f32
abbrev Weight := (⟨2, ![2048, 2048]⟩ : Shape).Idx → Ideal .f32

/-- Row r of a against row c of w: entry (r, c) of a · wᵀ. -/
def rowDot (a : State) (w : Weight) (j : (⟨2, ![4096, 2048]⟩ : Shape).Idx) : Ideal .f32 :=
  ∑ k : Fin 2048, a (ix2 (j 0) k) * w (ix2 (j 1) k)

/-- The four results of the step, index by index. -/
def zNext (v i rho : State) (g : Weight) : State :=
  fun j => zOut (v j) (i j) (rho j) (rowDot v g j)
def vNext (v i rho : State) (g : Weight) : State :=
  fun j => vOut (v j) (i j) (rho j) (rowDot v g j)
def iNext (inp z i : State) (wIn wRec : Weight) : State :=
  fun j => iOut (i j) (rowDot inp wIn j) (rowDot z wRec j)
def rhoNext (v i rho : State) (g : Weight) : State :=
  fun j => rhoOut (v j) (i j) (rho j) (rowDot v g j)

/-- A one-bit word widened with zeros to 32 bits and read as a signed integer is the bit read unsigned. -/
theorem signed_of_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : ∀ b : BitVec 1, (b.setWidth 32).toInt = (b.toNat : ℤ) := by decide
  rw [h b, Int.cast_natCast]

end Lif

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.Payload.lean ====
/-
  The body's arithmetic read at one element of the tile.

  At the ideal values every elementwise operation of the body is the same operation on the element, a change
  of float format is the identity, a shape cast to the same shape is the identity, and a product of a [512, 2048] block with a [128, 2048] block contracted
  along the long axis of both, started from zero, is the plain sum over k of lhs(p, k) · rhs(q, k).  The two
  comparisons produce a bit that the body widens to a 32-bit word and reads as a signed integer: that is the
  bit read unsigned.  So at element (p, q) each stored operand is the scalar step function of the specification
  applied to the elements of the loaded blocks and to the three row-against-row sums.
-/
import proofs.«130298_j42631845380415_2_alg».proof.Proof.Gen.KernelIdeal.Skeleton
import proofs.«130298_j42631845380415_2_alg».proof.Proof.Spec
import proofs.«130298_j42631845380415_2_alg».proof.Proof.LibDotRowsT
import Idealize.ShloMosaic.Lib.Pipeline.Value

noncomputable section

open scoped BigOperators

open Idealize.ShloMosaic Idealize.ShloMosaic.ValueIdx

namespace Cert.KernelIdeal.Body

open Cert.KernelIdeal Cert.KernelIdeal.Gen

/-- The dimension numbers of the body's three products: axis 1 of both operands is contracted. -/
abbrev dims : DotDims S512x2048 S128x2048 S512x128 := dot_S512x2048_S128x2048_S512x128_1_1_0_0_n_n

theorem dims_lhs_row (j : S512x128.Idx) (k : dims.contr.Idx) : (dims.lhsIdx j k 0).val = (j 0).val := by
  unfold DotDims.lhsIdx
  rw [dif_neg (show ¬(0 : Fin S512x2048.rank) ∈ dims.lhsBatch by decide),
    dif_pos (show (0 : Fin S512x2048.rank) ∈ dims.lhsNonContracting by decide)]
  rfl
theorem dims_lhs_k (j : S512x128.Idx) (k : dims.contr.Idx) : (dims.lhsIdx j k 1).val = (k ⟨0, by decide⟩).val :=
  dims.lhsIdx_val_of_single rfl j k
theorem dims_rhs_row (j : S512x128.Idx) (k : dims.contr.Idx) : (dims.rhsIdx j k 0).val = (j 1).val := by
  unfold DotDims.rhsIdx
  rw [dif_neg (show ¬(0 : Fin S128x2048.rank) ∈ dims.rhsBatch by decide),
    dif_pos (show (0 : Fin S128x2048.rank) ∈ dims.rhsNonContracting by decide)]
  rfl
theorem dims_rhs_k (j : S512x128.Idx) (k : dims.contr.Idx) : (dims.rhsIdx j k 1).val = (k ⟨0, by decide⟩).val :=
  dims.rhsIdx_val_of_single rfl j k

/-- A product of the body, into the zero tile, at (p, q): row p of the left block against row q of the right. -/
theorem product_at {φ₁ φ₂ : FTy} (prec : Option ContractPrecision) (l : FVec Ideal S512x2048 φ₁) (r : FVec Ideal S128x2048 φ₂)
    (p : Fin 512) (q : Fin 128) :
    matmul dims prec l r (constant (F := Ideal) S512x128 .f32 0x00000000#32) (ix2 p q) = ∑ k : Fin 2048, l (ix2 p k) * r (ix2 q k) :=
  matmul_zero_rowsT (R := 512) (K := 2048) (J := 128) dims prec rfl rfl dims_lhs_row dims_lhs_k dims_rhs_row dims_rhs_k l r p q

variable (x0 x1 : Vec Ideal S512x2048 .bf16) (x2 : Vec Ideal S512x2048 .f32) (vt x3 x4 : Vec Ideal S512x128 .f32)
  (x5 : Vec Ideal S128x2048 .f32) (x6 x7 : Vec Ideal S128x2048 .bf16) (p : Fin 512) (q : Fin 128)

/-- The decayed potential at (p, q). -/
theorem decayed_at :
    k0_pay9 x2 x5 vt x3 (ix2 p q)
      = Lif.decayed (vt (ix2 p q)) (x3 (ix2 p q)) (∑ k : Fin 2048, x2 (ix2 p k) * x5 (ix2 q k)) :=
  congrArg (Lif.decayed (vt (ix2 p q)) (x3 (ix2 p q))) (product_at (some .fp32) x2 x5 p q)

/-- The decayed potential less the threshold at (p, q). -/
theorem over_at :
    k0_pay11 x2 x5 vt x3 (ix2 p q)
      = FloatOps.subf (F := Ideal) (Lif.decayed (vt (ix2 p q)) (x3 (ix2 p q)) (∑ k : Fin 2048, x2 (ix2 p k) * x5 (ix2 q k))) Lif.one :=
  congrArg (fun s => FloatOps.subf (F := Ideal) s Lif.one) (decayed_at x2 vt x3 x5 p q)

/-- The refractory mask at an element: the widened, signed-read bit of rho > 0 is the step of rho. -/
theorem mask_at (y : S512x128.Idx) : k0_pay3 x4 y = Lif.step (x4 y) :=
  Lif.signed_of_widened_bit _

/-- The crossing indicator at an element, for any tile u compared against the zero tile. -/
theorem crossed_at (u : FVec Ideal S512x128 .f32) (y : S512x128.Idx) :
    k0_pay1 u (k0_pay12 (F := Ideal)) y = Lif.step (u y) :=
  Lif.signed_of_widened_bit _

/-- The new spike at (p, q). -/
theorem spike_at :
    k0_pay5 x4 (k0_pay11 x2 x5 vt x3) (k0_pay12 (F := Ideal)) (ix2 p q)
      = Lif.zOut (vt (ix2 p q)) (x3 (ix2 p q)) (x4 (ix2 p q)) (∑ k : Fin 2048, x2 (ix2 p k) * x5 (ix2 q k)) := by
  show FloatOps.mulf (F := Ideal) (FloatOps.subf (F := Ideal) Lif.one (k0_pay3 x4 (ix2 p q)))
    (k0_pay1 (k0_pay11 x2 x5 vt x3) (k0_pay12 (F := Ideal)) (ix2 p q)) = _
  rw [mask_at, crossed_at, over_at]
  rfl

/-- The new potential at (p, q). -/
theorem potential_at :
    k0_pay4 vt x4 (k0_pay9 x2 x5 vt x3) (k0_pay11 x2 x5 vt x3) (k0_pay12 (F := Ideal)) (ix2 p q)
      = Lif.vOut (vt (ix2 p q)) (x3 (ix2 p q)) (x4 (ix2 p q)) (∑ k : Fin 2048, x2 (ix2 p k) * x5 (ix2 q k)) := by
  show FloatOps.addf (F := Ideal)
    (FloatOps.mulf (F := Ideal) (FloatOps.subf (F := Ideal) Lif.one (k0_pay3 x4 (ix2 p q)))
      (FloatOps.addf (F := Ideal)
        (FloatOps.mulf (F := Ideal)
          (FloatOps.subf (F := Ideal) Lif.one (k0_pay1 (k0_pay11 x2 x5 vt x3) (k0_pay12 (F := Ideal)) (ix2 p q)))
          (k0_pay9 x2 x5 vt x3 (ix2 p q)))
        (FloatOps.mulf (F := Ideal) (k0_pay1 (k0_pay11 x2 x5 vt x3) (k0_pay12 (F := Ideal)) (ix2 p q)) Lif.zero)))
    (FloatOps.mulf (F := Ideal) (k0_pay3 x4 (ix2 p q)) (vt (ix2 p q))) = _
  rw [mask_at, crossed_at, over_at, decayed_at]
  rfl

/-- The new current at (p, q). -/
theorem current_at :
    k0_pay2 (k0_pay7 x0 x6) (k0_pay8 x1 x7) (k0_pay10 x3) (ix2 p q)
      = Lif.iOut (x3 (ix2 p q)) (∑ k : Fin 2048, x0 (ix2 p k) * x6 (ix2 q k)) (∑ k : Fin 2048, x1 (ix2 p k) * x7 (ix2 q k)) := by
  have e1 : k0_pay7 x0 x6 (ix2 p q) = ∑ k : Fin 2048, x0 (ix2 p k) * x6 (ix2 q k) := by
    show matmul dims none (shapeCast S512x2048 x0 shapeCasts_S512x2048_S512x2048) (shapeCast S128x2048 x6 shapeCasts_S128x2048_S128x2048)
      (constant (F := Ideal) S512x128 .f32 0x00000000#32) (ix2 p q) = _
    rw [shapeCast_self, shapeCast_self]
    exact product_at none x0 x6 p q
  have e2 : k0_pay8 x1 x7 (ix2 p q) = ∑ k : Fin 2048, x1 (ix2 p k) * x7 (ix2 q k) := by
    show matmul dims none (shapeCast S512x2048 x1 shapeCasts_S512x2048_S512x2048) (shapeCast S128x2048 x7 shapeCasts_S128x2048_S128x2048)
      (constant (F := Ideal) S512x128 .f32 0x00000000#32) (ix2 p q) = _
    rw [shapeCast_self, shapeCast_self]
    exact product_at none x1 x7 p q
  show Lif.iOut (x3 (ix2 p q)) (k0_pay7 x0 x6 (ix2 p q)) (k0_pay8 x1 x7 (ix2 p q)) = _
  rw [e1, e2]

/-- The new refractory counter at (p, q). -/
theorem counter_at :
    k0_pay6 x4 (k0_pay11 x2 x5 vt x3) (k0_pay12 (F := Ideal)) (ix2 p q)
      = Lif.rhoOut (vt (ix2 p q)) (x3 (ix2 p q)) (x4 (ix2 p q)) (∑ k : Fin 2048, x2 (ix2 p k) * x5 (ix2 q k)) := by
  show FloatOps.addf (F := Ideal)
    (FloatOps.mulf (F := Ideal)
      (FloatOps.subf (F := Ideal) Lif.one (k0_pay5 x4 (k0_pay11 x2 x5 vt x3) (k0_pay12 (F := Ideal)) (ix2 p q)))
      (FloatOps.maximumf (F := Ideal) (FloatOps.subf (F := Ideal) (x4 (ix2 p q)) (k0_pay3 x4 (ix2 p q))) Lif.zero))
    (FloatOps.mulf (F := Ideal) (k0_pay5 x4 (k0_pay11 x2 x5 vt x3) (k0_pay12 (F := Ideal)) (ix2 p q)) Lif.five) = _
  rw [mask_at, spike_at]
  rfl

end Cert.KernelIdeal.Body

end
-- ==== Proof.Arrays.lean ====
/-
  From tiles to arrays: what the four result arrays hold after the grid.

  At every element of a point's tile the stored operand is the specification's scalar function of the arrays
  read at the element's place in the whole array, and of the three sums of row r of a state against row c of a
  weight matrix (r, c the element's row and column in the whole array): so each tile a point writes back is the
  restriction of ONE whole-array function.  The 128 tiles of an output are disjoint and cover it (the tile of
  an index is the one at (row / 512, column / 128)), so after the grid the array is that function.
-/
import proofs.«130298_j42631845380415_2_alg».proof.Proof.Gen.KernelIdeal.Value
import proofs.«130298_j42631845380415_2_alg».proof.Proof.Reads
import proofs.«130298_j42631845380415_2_alg».proof.Proof.Payload

noncomputable section

open scoped BigOperators

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ) (ρ : Dev nD → PrngReg)

/-! ## The arrays as the grid finds them -/

abbrev vF (c : Dev nD) : Lif.State := V m c main_arg2
abbrev iF (c : Dev nD) : Lif.State := V m c main_arg3
abbrev rhoF (c : Dev nD) : Lif.State := V m c main_arg4
abbrev gF (c : Dev nD) : Lif.Weight := V m c main_arg7
abbrev inpF (c : Dev nD) : Lif.State := V m c main_v0
abbrev zF (c : Dev nD) : Lif.State := V m c main_v1
abbrev winF (c : Dev nD) : Lif.Weight := V m c main_v2
abbrev wrecF (c : Dev nD) : Lif.Weight := V m c main_v3

/-! ## The three sums at an element of a point's tile -/

/-- Row p of a [512, 2048] block against row q of a [128, 2048] block. -/
abbrev blockDot (l : S512x2048.Idx → EReal) (r : S128x2048.Idx → EReal) (p : Fin 512) (q : Fin 128) : EReal :=
  ∑ k : Fin 2048, l (ix2 p k) * r (ix2 q k)

section point

variable (c : Dev nD) (t : Fin cfg0.N) (y : S512x128.Idx) (j : S4096x2048.Idx)
  (hj0 : (j 0).val = win0_8.index t (0 : Fin 2) * 512 + (y 0).val)
  (hj1 : (j 1).val = win0_8.index t (1 : Fin 2) * 128 + (y 1).val)

include hj0 hj1

/-- Row y₀ of the block of v against row y₁ of the block of g is row j₀ of v against row j₁ of g. -/
theorem coupling_sum :
    blockDot (iblk m c 2 t) (iblk m c 5 t) (y 0) (y 1) = Lif.rowDot (vF m c) (gF m c) j :=
  Finset.sum_congr rfl fun k _ =>
    congr (congrArg (fun a b : EReal => a * b) (v_rows m c t (ix2 (y 0) k) (ix2 (j 0) k) hj0 rfl))
      (g_rows m c t (ix2 (y 1) k) (ix2 (j 1) k) hj1 rfl)

/-- The same for inp against w_in. -/
theorem input_sum :
    blockDot (iblk m c 0 t) (iblk m c 6 t) (y 0) (y 1) = Lif.rowDot (inpF m c) (winF m c) j :=
  Finset.sum_congr rfl fun k _ =>
    congr (congrArg (fun a b : EReal => a * b) (inp_rows m c t (ix2 (y 0) k) (ix2 (j 0) k) hj0 rfl))
      (win_rows m c t (ix2 (y 1) k) (ix2 (j 1) k) hj1 rfl)

/-- The same for z against w_rec. -/
theorem recurrent_sum :
    blockDot (iblk m c 1 t) (iblk m c 7 t) (y 0) (y 1) = Lif.rowDot (zF m c) (wrecF m c) j :=
  Finset.sum_congr rfl fun k _ =>
    congr (congrArg (fun a b : EReal => a * b) (z_rows m c t (ix2 (y 0) k) (ix2 (j 0) k) hj0 rfl))
      (wrec_rows m c t (ix2 (y 1) k) (ix2 (j 1) k) hj1 rfl)

/-! ## The four stored operands at an element: the specification at the element's place in the array -/

theorem spike_point :
    k0_pay5 (iblk m c 4 t : Vec Ideal S512x128 .f32)
        (overThreshold (grid0.coords t) (iblk m c 2 t) (iblk m c 3 t) (iblk m c 5 t)) (k0_pay12 (F := Ideal)) y
      = Lif.zNext (vF m c) (iF m c) (rhoF m c) (gF m c) j := by
  obtain ⟨p, q, rfl⟩ : ∃ (p : Fin 512) (q : Fin 128), y = ix2 p q := ⟨y 0, y 1, eq_ix2 y⟩
  refine (spike_at (x2 := iblk m c 2 t) (vt := tileOf (grid0.coords t) (iblk m c 2 t)) (x3 := iblk m c 3 t)
    (x4 := iblk m c 4 t) (x5 := iblk m c 5 t) (p := p) (q := q)).trans ?_
  exact congr (congr (congr (congrArg Lif.zOut (v_tile m c t (ix2 p q) j hj0 hj1)) (i_tile m c t (ix2 p q) j hj0 hj1))
    (rho_tile m c t (ix2 p q) j hj0 hj1)) (coupling_sum m c t (ix2 p q) j hj0 hj1)

theorem potential_point :
    k0_pay4 (tileOf (grid0.coords t) (iblk m c 2 t)) (iblk m c 4 t : Vec Ideal S512x128 .f32)
        (k0_pay9 (iblk m c 2 t) (iblk m c 5 t) (tileOf (grid0.coords t) (iblk m c 2 t)) (iblk m c 3 t))
        (overThreshold (grid0.coords t) (iblk m c 2 t) (iblk m c 3 t) (iblk m c 5 t)) (k0_pay12 (F := Ideal)) y
      = Lif.vNext (vF m c) (iF m c) (rhoF m c) (gF m c) j := by
  obtain ⟨p, q, rfl⟩ : ∃ (p : Fin 512) (q : Fin 128), y = ix2 p q := ⟨y 0, y 1, eq_ix2 y⟩
  refine (potential_at (x2 := iblk m c 2 t) (vt := tileOf (grid0.coords t) (iblk m c 2 t)) (x3 := iblk m c 3 t)
    (x4 := iblk m c 4 t) (x5 := iblk m c 5 t) (p := p) (q := q)).trans ?_
  exact congr (congr (congr (congrArg Lif.vOut (v_tile m c t (ix2 p q) j hj0 hj1)) (i_tile m c t (ix2 p q) j hj0 hj1))
    (rho_tile m c t (ix2 p q) j hj0 hj1)) (coupling_sum m c t (ix2 p q) j hj0 hj1)

theorem current_point :
    k0_pay2 (k0_pay7 (iblk m c 0 t) (iblk m c 6 t)) (k0_pay8 (iblk m c 1 t) (iblk m c 7 t))
        (k0_pay10 (iblk m c 3 t : Vec Ideal S512x128 .f32)) y
      = Lif.iNext (inpF m c) (zF m c) (iF m c) (winF m c) (wrecF m c) j := by
  obtain ⟨p, q, rfl⟩ : ∃ (p : Fin 512) (q : Fin 128), y = ix2 p q := ⟨y 0, y 1, eq_ix2 y⟩
  refine (current_at (x0 := iblk m c 0 t) (x1 := iblk m c 1 t) (x3 := iblk m c 3 t) (x6 := iblk m c 6 t)
    (x7 := iblk m c 7 t) (p := p) (q := q)).trans ?_
  exact congr (congr (congrArg Lif.iOut (i_tile m c t (ix2 p q) j hj0 hj1)) (input_sum m c t (ix2 p q) j hj0 hj1))
    (recurrent_sum m c t (ix2 p q) j hj0 hj1)

theorem counter_point :
    k0_pay6 (iblk m c 4 t : Vec Ideal S512x128 .f32)
        (overThreshold (grid0.coords t) (iblk m c 2 t) (iblk m c 3 t) (iblk m c 5 t)) (k0_pay12 (F := Ideal)) y
      = Lif.rhoNext (vF m c) (iF m c) (rhoF m c) (gF m c) j := by
  obtain ⟨p, q, rfl⟩ : ∃ (p : Fin 512) (q : Fin 128), y = ix2 p q := ⟨y 0, y 1, eq_ix2 y⟩
  refine (counter_at (x2 := iblk m c 2 t) (vt := tileOf (grid0.coords t) (iblk m c 2 t)) (x3 := iblk m c 3 t)
    (x4 := iblk m c 4 t) (x5 := iblk m c 5 t) (p := p) (q := q)).trans ?_
  exact congr (congr (congr (congrArg Lif.rhoOut (v_tile m c t (ix2 p q) j hj0 hj1)) (i_tile m c t (ix2 p q) j hj0 hj1))
    (rho_tile m c t (ix2 p q) j hj0 hj1)) (coupling_sum m c t (ix2 p q) j hj0 hj1)

end point

/-! ## What a point writes back is a tile of one whole-array function -/

theorem spikes_tile (c : Dev nD) (t : Fin cfg0.N) :
    (dats m 0 c).flushed 8 t
      = ((cfg0.win 8).blk t).view.read (Elt Ideal) (Lif.zNext (vF m c) (iF m c) (rhoF m c) (gF m c)) := by
  rw [Value.flushed8_A, spike_tile]
  funext y
  rw [View.read_apply]
  exact spike_point m c t y _
    (by show win0_8.index t (0 : Fin 2) * 512 + 1 * (y 0).val = _; omega)
    (by show win0_8.index t (1 : Fin 2) * 128 + 1 * (y 1).val = _; omega)

theorem potentials_tile (c : Dev nD) (t : Fin cfg0.N) :
    (dats m 0 c).flushed 9 t
      = ((cfg0.win 9).blk t).view.read (Elt Ideal) (Lif.vNext (vF m c) (iF m c) (rhoF m c) (gF m c)) := by
  obtain ⟨e0, e1⟩ := index_9 t
  rw [Value.flushed9_A, potential_tile]
  funext y
  rw [View.read_apply]
  exact potential_point m c t y _
    (by show win0_9.index t (0 : Fin 2) * 512 + 1 * (y 0).val = _; omega)
    (by show win0_9.index t (1 : Fin 2) * 128 + 1 * (y 1).val = _; omega)

theorem currents_tile (c : Dev nD) (t : Fin cfg0.N) :
    (dats m 0 c).flushed 10 t
      = ((cfg0.win 10).blk t).view.read (Elt Ideal) (Lif.iNext (inpF m c) (zF m c) (iF m c) (winF m c) (wrecF m c)) := by
  obtain ⟨e0, e1⟩ := index_10 t
  rw [Value.flushed10_A, current_tile]
  funext y
  rw [View.read_apply]
  exact current_point m c t y _
    (by show win0_10.index t (0 : Fin 2) * 512 + 1 * (y 0).val = _; omega)
    (by show win0_10.index t (1 : Fin 2) * 128 + 1 * (y 1).val = _; omega)

theorem counters_tile (c : Dev nD) (t : Fin cfg0.N) :
    (dats m 0 c).flushed 11 t
      = ((cfg0.win 11).blk t).view.read (Elt Ideal) (Lif.rhoNext (vF m c) (iF m c) (rhoF m c) (gF m c)) := by
  obtain ⟨e0, e1⟩ := index_11 t
  rw [Value.flushed11_A, counter_tile]
  funext y
  rw [View.read_apply]
  exact counter_point m c t y _
    (by show win0_11.index t (0 : Fin 2) * 512 + 1 * (y 0).val = _; omega)
    (by show win0_11.index t (1 : Fin 2) * 128 + 1 * (y 1).val = _; omega)

/-! ## The tiles cover each output -/

theorem mem_tile_8 (t : Fin cfg0.N) (i : S4096x2048.Idx) :
    i ∈ ((cfg0.win 8).blk t).view.set ↔ ∀ a : Fin 2, win0_8.index t a * S512x128.size a ≤ (i a).val ∧ (i a).val < win0_8.index t a * S512x128.size a + S512x128.size a := by
  show i ∈ ((View.whole main_v4_0).slice (win0_8.rect t)).set ↔ _
  rw [View.set_slice_whole, Rect.mem_set_unit]
  exact Iff.rfl

/-- Every index of the spikes array is in the tile of the point (row / 512, column / 128). -/
theorem tiles_cover_8 (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := index_onto_8 ⟨(i 0).val / 512, by omega⟩ ⟨(i 1).val / 128, by omega⟩
  have q0 : win0_8.index t (0 : Fin 2) = (i 0).val / 512 := congrFun ht 0
  have q1 : win0_8.index t (1 : Fin 2) = (i 1).val / 128 := congrFun ht 1
  refine ⟨t, flush0_8 t, ?_⟩
  rw [mem_tile_8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 128 ≤ (i 1).val ∧ (i 1).val < win0_8.index t (1 : Fin 2) * 128 + 128; omega

theorem mem_tile_9 (t : Fin cfg0.N) (i : S4096x2048.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v4_1).slice (win0_9.rect t)).set ↔ _
  rw [View.set_slice_whole, Rect.mem_set_unit]
  exact Iff.rfl

/-- Every index of the potentials array is in the tile of the point (row / 512, column / 128). -/
theorem tiles_cover_9 (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, ht⟩ := index_onto_9 ⟨(i 0).val / 512, by omega⟩ ⟨(i 1).val / 128, by omega⟩
  have q0 : win0_9.index t (0 : Fin 2) = (i 0).val / 512 := congrFun ht 0
  have q1 : win0_9.index t (1 : Fin 2) = (i 1).val / 128 := congrFun ht 1
  refine ⟨t, flush0_9 t, ?_⟩
  rw [mem_tile_9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 128 ≤ (i 1).val ∧ (i 1).val < win0_9.index t (1 : Fin 2) * 128 + 128; omega

theorem mem_tile_10 (t : Fin cfg0.N) (i : S4096x2048.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v4_2).slice (win0_10.rect t)).set ↔ _
  rw [View.set_slice_whole, Rect.mem_set_unit]
  exact Iff.rfl

/-- Every index of the currents array is in the tile of the point (row / 512, column / 128). -/
theorem tiles_cover_10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := index_onto_10 ⟨(i 0).val / 512, by omega⟩ ⟨(i 1).val / 128, by omega⟩
  have q0 : win0_10.index t (0 : Fin 2) = (i 0).val / 512 := congrFun ht 0
  have q1 : win0_10.index t (1 : Fin 2) = (i 1).val / 128 := congrFun ht 1
  refine ⟨t, flush0_10 t, ?_⟩
  rw [mem_tile_10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 128 ≤ (i 1).val ∧ (i 1).val < win0_10.index t (1 : Fin 2) * 128 + 128; omega

theorem mem_tile_11 (t : Fin cfg0.N) (i : S4096x2048.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v4_3).slice (win0_11.rect t)).set ↔ _
  rw [View.set_slice_whole, Rect.mem_set_unit]
  exact Iff.rfl

/-- Every index of the refractory counters array is in the tile of the point (row / 512, column / 128). -/
theorem tiles_cover_11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ := index_onto_11 ⟨(i 0).val / 512, by omega⟩ ⟨(i 1).val / 128, by omega⟩
  have q0 : win0_11.index t (0 : Fin 2) = (i 0).val / 512 := congrFun ht 0
  have q1 : win0_11.index t (1 : Fin 2) = (i 1).val / 128 := congrFun ht 1
  refine ⟨t, flush0_11 t, ?_⟩
  rw [mem_tile_11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 128 ≤ (i 1).val ∧ (i 1).val < win0_11.index t (1 : Fin 2) * 128 + 128; omega

/-! ## The arrays after the grid, as functions of the arguments -/

abbrev arg (c : Dev nD) (b : Ref sig .tc) := m ((c : Thread nD τ).loc b)

theorem spikes_final (c : Dev nD) :
    (dats m 0 c).arrAt 8 cfg0.N = Lif.zNext (arg m c main_arg2) (arg m c main_arg3) (arg m c main_arg4) (arg m c main_arg7) := by
  rw [(dats m 0 c).arrAt_eq_of_cover 8 (Lif.zNext (vF m c) (iF m c) (rhoF m c) (gF m c))
    (fun t _ => spikes_tile m c t) tiles_cover_8]
  unfold vF iF rhoF gF
  rw [V_main_arg2, V_main_arg3, V_main_arg4, V_main_arg7]

theorem potentials_final (c : Dev nD) :
    (dats m 0 c).arrAt 9 cfg0.N = Lif.vNext (arg m c main_arg2) (arg m c main_arg3) (arg m c main_arg4) (arg m c main_arg7) := by
  rw [(dats m 0 c).arrAt_eq_of_cover 9 (Lif.vNext (vF m c) (iF m c) (rhoF m c) (gF m c))
    (fun t _ => potentials_tile m c t) tiles_cover_9]
  unfold vF iF rhoF gF
  rw [V_main_arg2, V_main_arg3, V_main_arg4, V_main_arg7]

theorem currents_final (c : Dev nD) :
    (dats m 0 c).arrAt 10 cfg0.N
      = Lif.iNext (arg m c main_arg0) (arg m c main_arg1) (arg m c main_arg3) (arg m c main_arg5) (arg m c main_arg6) := by
  rw [(dats m 0 c).arrAt_eq_of_cover 10 (Lif.iNext (inpF m c) (zF m c) (iF m c) (winF m c) (wrecF m c))
    (fun t _ => currents_tile m c t) tiles_cover_10]
  unfold inpF zF iF winF wrecF
  rw [found_inp, found_z, found_win, found_wrec, V_main_arg3]

theorem counters_final (c : Dev nD) :
    (dats m 0 c).arrAt 11 cfg0.N = Lif.rhoNext (arg m c main_arg2) (arg m c main_arg3) (arg m c main_arg4) (arg m c main_arg7) := by
  rw [(dats m 0 c).arrAt_eq_of_cover 11 (Lif.rhoNext (vF m c) (iF m c) (rhoF m c) (gF m c))
    (fun t _ => counters_tile m c t) tiles_cover_11]
  unfold vF iF rhoF gF
  rw [V_main_arg2, V_main_arg3, V_main_arg4, V_main_arg7]

/-! ## The run -/

/-- Every weakly fair execution of the program ends with the four result arrays at the specification's
    functions of the argument arrays, and the arguments unchanged. -/
theorem run : θ_run defs (onTc (τ := τ) (main (F := Ideal))) ⟨m, fun _ => 0, ρ⟩ fun r => ∀ c : Dev nD,
      r.2.mem ((c : Thread nD τ).loc main_v4_0) = Lif.zNext (arg m c main_arg2) (arg m c main_arg3) (arg m c main_arg4) (arg m c main_arg7)
      ∧ r.2.mem ((c : Thread nD τ).loc main_v4_1) = Lif.vNext (arg m c main_arg2) (arg m c main_arg3) (arg m c main_arg4) (arg m c main_arg7)
      ∧ r.2.mem ((c : Thread nD τ).loc main_v4_2) = Lif.iNext (arg m c main_arg0) (arg m c main_arg1) (arg m c main_arg3) (arg m c main_arg5) (arg m c main_arg6)
      ∧ r.2.mem ((c : Thread nD τ).loc main_v4_3) = Lif.rhoNext (arg m c main_arg2) (arg m c main_arg3) (arg m c main_arg4) (arg m c main_arg7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (spikes_final m c), (h c).2.1.trans (potentials_final m c),
      (h c).2.2.1.trans (currents_final m c), (h c).2.2.2.1.trans (counters_final m c), (h c).2.2.2.2⟩)
    (Cert.KernelIdeal.Value.run_blocks m ρ)

end Cert.KernelIdeal.Body

end
-- ==== Proof.RefSpec.lean ====
/-
  The reference's four results are the specification's four functions of the argument arrays.

  The reference computes each product as a contraction of the state with the TRANSPOSED weight matrix:
  entry (r, c) is the sum over k of a(r, k) · wᵀ(k, c), and wᵀ(k, c) = w(c, k); that is row r of a against
  row c of w.  Everything else in the reference is elementwise, the constants are splats of scalar words,
  and its two comparisons convert the bit unsigned; read at an index it is the specification's scalar
  function of the arguments' elements and the three sums.
-/
import proofs.«130298_j42631845380415_2_alg».proof.Proof.Gen.ReferenceIdeal.Read
import proofs.«130298_j42631845380415_2_alg».proof.Proof.Spec

noncomputable section

open scoped BigOperators

open Idealize.ShloMosaic Idealize.ShloMosaic.ValueIdx

namespace Cert.ReferenceIdeal.RefValue

open Cert.ReferenceIdeal Cert.ReferenceIdeal.Read

variable (x0 x1 x2 x3 x4 : (⟨S4096x2048, .f32⟩ : BufTy).Contents (Elt Ideal))
  (x5 x6 x7 : (⟨S2048x2048, .f32⟩ : BufTy).Contents (Elt Ideal))

/-- The coupling product v · gᵀ at an index. -/
theorem coupling_eq (j : S4096x2048.Idx) : val_main_v7 (F := Ideal) x2 x7 j = Lif.rowDot x2 x7 j := by
  rw [val_main_v7_apply]
  unfold Lif.rowDot
  refine Finset.sum_congr rfl fun k _ => ?_
  rw [val_main_v6_apply]
  have el : lidx_main_v7 j k = ix2 (j 0) k := funext fun a => by match a with | ⟨0, _⟩ => rfl | ⟨1, _⟩ => rfl
  have er : idx_main_v6 (ridx_main_v7 j k) = ix2 (j 1) k := funext fun a => by match a with | ⟨0, _⟩ => rfl | ⟨1, _⟩ => rfl
  rw [el, er]
  rfl

/-- The input projection inp · w_inᵀ at an index. -/
theorem input_eq (j : S4096x2048.Idx) : val_main_v24 (F := Ideal) x0 x5 j = Lif.rowDot x0 x5 j := by
  rw [val_main_v24_apply]
  unfold Lif.rowDot
  refine Finset.sum_congr rfl fun k _ => ?_
  rw [val_main_v23_apply]
  have el : lidx_main_v24 j k = ix2 (j 0) k := funext fun a => by match a with | ⟨0, _⟩ => rfl | ⟨1, _⟩ => rfl
  have er : idx_main_v23 (ridx_main_v24 j k) = ix2 (j 1) k := funext fun a => by match a with | ⟨0, _⟩ => rfl | ⟨1, _⟩ => rfl
  rw [el, er]
  rfl

/-- The recurrent projection z · w_recᵀ at an index. -/
theorem recurrent_eq (j : S4096x2048.Idx) : val_main_v27 (F := Ideal) x1 x6 j = Lif.rowDot x1 x6 j := by
  rw [val_main_v27_apply]
  unfold Lif.rowDot
  refine Finset.sum_congr rfl fun k _ => ?_
  rw [val_main_v26_apply]
  have el : lidx_main_v27 j k = ix2 (j 0) k := funext fun a => by match a with | ⟨0, _⟩ => rfl | ⟨1, _⟩ => rfl
  have er : idx_main_v26 (ridx_main_v27 j k) = ix2 (j 1) k := funext fun a => by match a with | ⟨0, _⟩ => rfl | ⟨1, _⟩ => rfl
  rw [el, er]
  rfl

/-- The reference's spikes. -/
theorem spikes_eq : val_main_v39 (F := Ideal) x2 x3 x4 x7 = Lif.zNext x2 x3 x4 x7 := by
  funext j
  simp only [val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_v0_apply, val_main_v1_apply, val_main_v2_apply, val_main_v3_apply, val_main_v4_apply, val_main_v5_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v25_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, coupling_eq]
  rfl

/-- The reference's potentials. -/
theorem potentials_eq : val_main_v36 (F := Ideal) x2 x3 x4 x7 = Lif.vNext x2 x3 x4 x7 := by
  funext j
  simp only [val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_v0_apply, val_main_v1_apply, val_main_v2_apply, val_main_v3_apply, val_main_v4_apply, val_main_v5_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v25_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, coupling_eq]
  rfl

/-- The reference's currents. -/
theorem currents_eq : val_main_v28 (F := Ideal) x0 x1 x3 x5 x6 = Lif.iNext x0 x1 x3 x5 x6 := by
  funext j
  simp only [val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_v0_apply, val_main_v1_apply, val_main_v2_apply, val_main_v3_apply, val_main_v4_apply, val_main_v5_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v25_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, input_eq, recurrent_eq]
  rfl

/-- The reference's refractory counters. -/
theorem counters_eq : val_main_v48 (F := Ideal) x2 x3 x4 x7 = Lif.rhoNext x2 x3 x4 x7 := by
  funext j
  simp only [val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_v0_apply, val_main_v1_apply, val_main_v2_apply, val_main_v3_apply, val_main_v4_apply, val_main_v5_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v25_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, coupling_eq]
  rfl

end Cert.ReferenceIdeal.RefValue

end
-- ==== Proof.lean ====
/-
  A fused step of a leaky integrate-and-fire layer with a refractory counter, against its plain reference.

  The program cuts the [4096, 2048] state into an 8 × 16 grid of [512, 128] tiles.  At each tile it forms three
  products of a [512, 2048] row block with 128 rows of a weight matrix, contracted along the 2048 columns of
  both — the coupling v · gᵀ at full precision, the projections inp · w_inᵀ and z · w_recᵀ from narrow-format
  copies — and then the elementwise update of the spikes, the potential, the current and the refractory counter.
  The reference transposes each weight matrix and contracts the state with it, over the whole arrays, then does
  the same elementwise update with the same constants in the same order.

  Read on the extended reals, a change of float format is the identity and each product is the sum over k of
  a(r, k) · w(c, k) whichever way it is tiled or transposed; every other operation of the two programs is the
  same operation applied to the same operands.  So both programs compute, index by index, the four functions
  of Proof/Spec.lean: the program tile by tile (Proof/Pieces.lean: what a tile holds after its point;
  Proof/Payload.lean: that value at one element; Proof/Reads.lean: where each loaded block sits in its array;
  Proof/Arrays.lean: the tiles cover each output), the reference by reading its operations at an index
  (Proof/RefSpec.lean).  No law of arithmetic beyond the sum's re-indexing is used, so the precondition that
  the inputs are finite is never opened.  The idealization rewrote nothing, and the three frames are the
  generated runs.
-/
import proofs.«130298_j42631845380415_2_alg».proof.Defs
import proofs.«130298_j42631845380415_2_alg».proof.Proof.Gen.Kernel
import proofs.«130298_j42631845380415_2_alg».proof.Proof.Gen.Kernel.Skeleton
import proofs.«130298_j42631845380415_2_alg».proof.Proof.Gen.Kernel.Launch
import proofs.«130298_j42631845380415_2_alg».proof.Proof.Gen.Kernel.Points
import proofs.«130298_j42631845380415_2_alg».proof.Proof.Gen.Kernel.Frame
import proofs.«130298_j42631845380415_2_alg».proof.Proof.Gen.KernelIdeal
import proofs.«130298_j42631845380415_2_alg».proof.Proof.Gen.KernelIdeal.Skeleton
import proofs.«130298_j42631845380415_2_alg».proof.Proof.Gen.KernelIdeal.Launch
import proofs.«130298_j42631845380415_2_alg».proof.Proof.Gen.KernelIdeal.Points
import proofs.«130298_j42631845380415_2_alg».proof.Proof.Gen.KernelIdeal.Frame
import proofs.«130298_j42631845380415_2_alg».proof.Proof.Gen.ReferenceIdeal
import proofs.«130298_j42631845380415_2_alg».proof.Proof.Gen.Pre_finite_inputs
import proofs.«130298_j42631845380415_2_alg».proof.Proof.Gen.KernelIdeal.Value
import proofs.«130298_j42631845380415_2_alg».proof.Proof.Gen.ReferenceIdeal.Run
import proofs.«130298_j42631845380415_2_alg».proof.Proof.Gen.ReferenceIdeal.Read
import proofs.«130298_j42631845380415_2_alg».proof.Proof.Arrays
import proofs.«130298_j42631845380415_2_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference_ideal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories that agree on the eight arguments both programs end with the four specification arrays:
    the program's by its tiles, the reference's by its operations read at an index. -/
theorem algebraic : Cert.algebraic_KernelIdeal_ReferenceIdeal := by
  intro m ρ m' ρ' _ hagree
  refine ⟨_, _, _, _, Cert.KernelIdeal.Body.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [Cert.ReferenceIdeal.Read.val_main_v39_eq, Cert.ReferenceIdeal.RefValue.spikes_eq, a2, a3, a4, a7]
  · rw [Cert.ReferenceIdeal.Read.val_main_v36_eq, Cert.ReferenceIdeal.RefValue.potentials_eq, a2, a3, a4, a7]
  · rw [Cert.ReferenceIdeal.Read.val_main_v28_eq, Cert.ReferenceIdeal.RefValue.currents_eq, a0, a1, a3, a5, a6]
  · rw [Cert.ReferenceIdeal.Read.val_main_v48_eq, Cert.ReferenceIdeal.RefValue.counters_eq, a2, a3, a4, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
